-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x50000 : Shape := ⟨2, ![64, 50000]⟩
abbrev S200000x128 : Shape := ⟨2, ![200000, 128]⟩
abbrev S128x128 : Shape := ⟨2, ![128, 128]⟩
abbrev S128 : Shape := ⟨1, ![128]⟩
abbrev S200000 : Shape := ⟨1, ![200000]⟩
abbrev S_ : Shape := ⟨0, ![]⟩

class Facts : Prop where
  bcast_S_S64x50000 : S_.BroadcastsInDim S64x50000 (![] : Fin 0 → Fin S64x50000.rank)
  reducesTo_S64x50000_S_d0_1 : S64x50000.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S64x50000 .f32) (main_arg1 : FVec F S200000x128 .f32) (main_arg2 : FVec F S128x128 .f32) (main_arg3 : FVec F S128 .f32) (main_arg4 : IVec S200000 32) (main_arg5 : IVec S200000 32) : IVec S_ 1 :=
  let main_v0 : FVec F S64x50000 .f32 := Host.absf main_arg0
  let main_cst : FVec F S_ .f32 := constant S_ .f32 0x7F800000#32
  let main_v1 : FVec F S64x50000 .f32 := broadcastInDim S64x50000 ![] bcast_S_S64x50000 main_cst
  let main_v2 : IVec S64x50000 1 := cmpf .olt main_v0 main_v1
  let main_c : IVec S_ 1 := constantI S_ 1 1#1
  let main_v3 : IVec S_ 1 := (fun x v => Host.reduce IntOp.andi x v reducesTo_S64x50000_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S64x50000 : Shape := ⟨2, ![64, 50000]⟩
abbrev S200000x128 : Shape := ⟨2, ![200000, 128]⟩
abbrev S128x128 : Shape := ⟨2, ![128, 128]⟩
abbrev S128 : Shape := ⟨1, ![128]⟩
abbrev S200000 : Shape := ⟨1, ![200000]⟩
abbrev S_ : Shape := ⟨0, ![]⟩
abbrev S200000x1 : Shape := ⟨2, ![200000, 1]⟩
abbrev S64x200000 : Shape := ⟨2, ![64, 200000]⟩
abbrev S64 : Shape := ⟨1, ![64]⟩
abbrev S64x1 : Shape := ⟨2, ![64, 1]⟩
abbrev S204800x128 : Shape := ⟨2, ![204800, 128]⟩
abbrev S64x204800 : Shape := ⟨2, ![64, 204800]⟩
abbrev S1x128 : Shape := ⟨2, ![1, 128]⟩
abbrev S64x128 : Shape := ⟨2, ![64, 128]⟩
abbrev S8192x128 : Shape := ⟨2, ![8192, 128]⟩
abbrev S64x8192 : Shape := ⟨2, ![64, 8192]⟩

abbrev nBuf : Space → Nat
  | .hbm => 48
  | .vmem => 8
  | .smem => 0
  | _ => 0

abbrev bufTy : (tb : Table) → Fin (tcTables nBuf tb) → BufTy
  | .hbm, ⟨0, _⟩ => ⟨S64x50000, .f32⟩
  | .hbm, ⟨1, _⟩ => ⟨S200000x128, .f32⟩
  | .hbm, ⟨2, _⟩ => ⟨S128x128, .f32⟩
  | .hbm, ⟨3, _⟩ => ⟨S128, .f32⟩
  | .hbm, ⟨4, _⟩ => ⟨S200000, .i32⟩
  | .hbm, ⟨5, _⟩ => ⟨S200000, .i32⟩
  | .hbm, ⟨6, _⟩ => ⟨S_, .i32⟩
  | .hbm, ⟨7, _⟩ => ⟨S200000, .i32⟩
  | .hbm, ⟨8, _⟩ => ⟨S200000, .i1⟩
  | .hbm, ⟨9, _⟩ => ⟨S_, .i32⟩
  | .hbm, ⟨10, _⟩ => ⟨S200000, .i32⟩
  | .hbm, ⟨11, _⟩ => ⟨S200000, .i32⟩
  | .hbm, ⟨12, _⟩ => ⟨S200000, .i32⟩
  | .hbm, ⟨13, _⟩ => ⟨S200000x1, .i32⟩
  | .hbm, ⟨14, _⟩ => ⟨S64x200000, .f32⟩
  | .hbm, ⟨15, _⟩ => ⟨S_, .i32⟩
  | .hbm, ⟨16, _⟩ => ⟨S200000, .i32⟩
  | .hbm, ⟨17, _⟩ => ⟨S200000, .i1⟩
  | .hbm, ⟨18, _⟩ => ⟨S_, .i32⟩
  | .hbm, ⟨19, _⟩ => ⟨S200000, .i32⟩
  | .hbm, ⟨20, _⟩ => ⟨S200000, .i32⟩
  | .hbm, ⟨21, _⟩ => ⟨S200000, .i32⟩
  | .hbm, ⟨22, _⟩ => ⟨S200000x1, .i32⟩
  | .hbm, ⟨23, _⟩ => ⟨S64x200000, .f32⟩
  | .hbm, ⟨24, _⟩ => ⟨S64x200000, .f32⟩
  | .hbm, ⟨25, _⟩ => ⟨S_, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .i1⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S64x1, .f32⟩
  | .hbm, ⟨38, _⟩ => ⟨S64x200000, .f32⟩
  | .hbm, ⟨39, _⟩ => ⟨S64x200000, .f32⟩
  | .hbm, ⟨40, _⟩ => ⟨S_, .i32⟩
  | .hbm, ⟨41, _⟩ => ⟨S_, .f32⟩
  | .hbm, ⟨42, _⟩ => ⟨S204800x128, .f32⟩
  | .hbm, ⟨43, _⟩ => ⟨S_, .i32⟩
  | .hbm, ⟨44, _⟩ => ⟨S_, .f32⟩
  | .hbm, ⟨45, _⟩ => ⟨S64x204800, .f32⟩
  | .hbm, ⟨46, _⟩ => ⟨S1x128, .f32⟩
  | .hbm, ⟨47, _⟩ => ⟨S64x128, .f32⟩
  | .local _ .vmem, ⟨0, _⟩ => ⟨S8192x128, .f32⟩
  | .local _ .vmem, ⟨1, _⟩ => ⟨S8192x128, .f32⟩
  | .local _ .vmem, ⟨2, _⟩ => ⟨S64x8192, .f32⟩
  | .local _ .vmem, ⟨3, _⟩ => ⟨S64x8192, .f32⟩
  | .local _ .vmem, ⟨4, _⟩ => ⟨S128x128, .f32⟩
  | .local _ .vmem, ⟨5, _⟩ => ⟨S1x128, .f32⟩
  | .local _ .vmem, ⟨6, _⟩ => ⟨S64x128, .f32⟩
  | .local _ .vmem, ⟨7, _⟩ => ⟨S64x128, .f32⟩
  | _, _ => ⟨S64x50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_call1_v0 : Ref sig .tc := ⟨.hbm, 41, rfl⟩
abbrev main_v24 : Ref sig .tc := ⟨.hbm, 42, rfl⟩
abbrev main_c_7 : Ref sig .tc := ⟨.hbm, 43, rfl⟩
abbrev main_call2_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v23 : BitVec 1 := Scalar.cmpi .eq arg0 c24_i32
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  reducesTo_S64x200000_S64_d1 : S64x200000.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x200000_0_1 : S64x1.BroadcastsInDim S64x200000 (![0, 1] : Fin 2 → Fin S64x200000.rank)
  pads_S200000x128_S204800x128_048000_000 : S200000x128.Pads (![0, 0] : Fin 2 → Nat) ![4800, 0] ![0, 0] S204800x128
  pads_S64x200000_S64x204800_000_048000 : S64x200000.Pads (![0, 0] : Fin 2 → Nat) ![0, 4800] ![0, 0] S64x204800
  shapeCasts_S128_S1x128 : S128.ShapeCasts S1x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  gather_S64x50000_S200000x1_S64x200000_0_1_n_n_1_1_641_wf : GatherDims.WF S64x50000 S200000x1 S64x200000 [0] [1] [] [1] [] 1 ![64, 1]
  dot_S8192x128_S128x128_S8192x128_1_0_0_1_n_n_wf : DotDims.WF S8192x128 S128x128 S8192x128 [1] [0] [0] [1] [] []
  dot_S64x8192_S8192x128_S64x128_1_0_0_1_n_n_wf : DotDims.WF S64x8192 S8192x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S204800x128.size a
  hwx0_0 : ∀ i : grid0.Coords, EltTy.bits .f32 = 32 ∨ (Rect.block (s := S204800x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8192.size a ≤ S64x204800.size a
  hwx0_1 : ∀ i : grid0.Coords, EltTy.bits .f32 = 32 ∨ (Rect.block (s := S64x204800) S64x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)

variable [Facts₀]

def gather_S64x50000_S200000x1_S64x200000_0_1_n_n_1_1_641 : GatherDims S64x50000 S200000x1 S64x200000 where
  offsetDims := [0]
  collapsedSliceDims := [1]
  operandBatchingDims := []
  startIndicesBatchingDims := []
  startIndexMap := [1]
  indexVectorDim := 1
  sliceSizes := ![64, 1]
  wf := gather_S64x50000_S200000x1_S64x200000_0_1_n_n_1_1_641_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S64x8192_S8192x128_S64x128_1_0_0_1_n_n : DotDims S64x8192 S8192x128 S64x128 where
  lhsContracting := [1]
  rhsContracting := [0]
  lhsNonContracting := [0]
  rhsNonContracting := [1]
  lhsBatch := []
  rhsBatch := []
  wf := dot_S64x8192_S8192x128_S64x128_1_0_0_1_n_n_wf

abbrev win0_0 : Pipeline.Window sig grid0 :=
  Pipeline.Window.ofSpec (Memref.whole main_v24) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S64x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S64x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S64x50000 : Shape := ⟨2, ![64, 50000]⟩
abbrev S200000x128 : Shape := ⟨2, ![200000, 128]⟩
abbrev S128x128 : Shape := ⟨2, ![128, 128]⟩
abbrev S128 : Shape := ⟨1, ![128]⟩
abbrev S200000 : Shape := ⟨1, ![200000]⟩
abbrev S_ : Shape := ⟨0, ![]⟩
abbrev S200000x1 : Shape := ⟨2, ![200000, 1]⟩
abbrev S64x200000 : Shape := ⟨2, ![64, 200000]⟩
abbrev S64 : Shape := ⟨1, ![64]⟩
abbrev S64x1 : Shape := ⟨2, ![64, 1]⟩
abbrev S1x128 : Shape := ⟨2, ![1, 128]⟩
abbrev S64x128 : Shape := ⟨2, ![64, 128]⟩

abbrev nBuf : Space → Nat
  | .hbm => 45
  | .vmem => 0
  | .smem => 0
  | _ => 0

abbrev bufTy : (tb : Table) → Fin (tcTables nBuf tb) → BufTy
  | .hbm, ⟨0, _⟩ => ⟨S64x50000, .f32⟩
  | .hbm, ⟨1, _⟩ => ⟨S200000x128, .f32⟩
  | .hbm, ⟨2, _⟩ => ⟨S128x128, .f32⟩
  | .hbm, ⟨3, _⟩ => ⟨S128, .f32⟩
  | .hbm, ⟨4, _⟩ => ⟨S200000, .i32⟩
  | .hbm, ⟨5, _⟩ => ⟨S200000, .i32⟩
  | .hbm, ⟨6, _⟩ => ⟨S_, .i32⟩
  | .hbm, ⟨7, _⟩ => ⟨S200000, .i32⟩
  | .hbm, ⟨8, _⟩ => ⟨S200000, .i1⟩
  | .hbm, ⟨9, _⟩ => ⟨S_, .i32⟩
  | .hbm, ⟨10, _⟩ => ⟨S200000, .i32⟩
  | .hbm, ⟨11, _⟩ => ⟨S200000, .i32⟩
  | .hbm, ⟨12, _⟩ => ⟨S200000, .i32⟩
  | .hbm, ⟨13, _⟩ => ⟨S200000x1, .i32⟩
  | .hbm, ⟨14, _⟩ => ⟨S64x200000, .f32⟩
  | .hbm, ⟨15, _⟩ => ⟨S_, .i32⟩
  | .hbm, ⟨16, _⟩ => ⟨S200000, .i32⟩
  | .hbm, ⟨17, _⟩ => ⟨S200000, .i1⟩
  | .hbm, ⟨18, _⟩ => ⟨S_, .i32⟩
  | .hbm, ⟨19, _⟩ => ⟨S200000, .i32⟩
  | .hbm, ⟨20, _⟩ => ⟨S200000, .i32⟩
  | .hbm, ⟨21, _⟩ => ⟨S200000, .i32⟩
  | .hbm, ⟨22, _⟩ => ⟨S200000x1, .i32⟩
  | .hbm, ⟨23, _⟩ => ⟨S64x200000, .f32⟩
  | .hbm, ⟨24, _⟩ => ⟨S64x200000, .f32⟩
  | .hbm, ⟨25, _⟩ => ⟨S_, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .i1⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S64x1, .f32⟩
  | .hbm, ⟨38, _⟩ => ⟨S64x200000, .f32⟩
  | .hbm, ⟨39, _⟩ => ⟨S64x200000, .f32⟩
  | .hbm, ⟨40, _⟩ => ⟨S200000x128, .f32⟩
  | .hbm, ⟨41, _⟩ => ⟨S1x128, .f32⟩
  | .hbm, ⟨42, _⟩ => ⟨S200000x128, .f32⟩
  | .hbm, ⟨43, _⟩ => ⟨S200000x128, .f32⟩
  | .hbm, ⟨44, _⟩ => ⟨S64x128, .f32⟩
  | _, _ => ⟨S64x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  reducesTo_S64x200000_S64_d1 : S64x200000.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x200000_0_1 : S64x1.BroadcastsInDim S64x200000 (![0, 1] : Fin 2 → Fin S64x200000.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  gather_S64x50000_S200000x1_S64x200000_0_1_n_n_1_1_641_wf : GatherDims.WF S64x50000 S200000x1 S64x200000 [0] [1] [] [1] [] 1 ![64, 1]
  dot_S200000x128_S128x128_S200000x128_1_0_0_1_n_n_wf : DotDims.WF S200000x128 S128x128 S200000x128 [1] [0] [0] [1] [] []
  dot_S64x200000_S200000x128_S64x128_1_0_0_1_n_n_wf : DotDims.WF S64x200000 S200000x128 S64x128 [1] [0] [0] [1] [] []

variable [Facts₀]

def gather_S64x50000_S200000x1_S64x200000_0_1_n_n_1_1_641 : GatherDims S64x50000 S200000x1 S64x200000 where
  offsetDims := [0]
  collapsedSliceDims := [1]
  operandBatchingDims := []
  startIndicesBatchingDims := []
  startIndexMap := [1]
  indexVectorDim := 1
  sliceSizes := ![64, 1]
  wf := gather_S64x50000_S200000x1_S64x200000_0_1_n_n_1_1_641_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S64x200000_S200000x128_S64x128_1_0_0_1_n_n : DotDims S64x200000 S200000x128 S64x128 where
  lhsContracting := [1]
  rhsContracting := [0]
  lhsNonContracting := [0]
  rhsNonContracting := [1]
  lhsBatch := []
  rhsBatch := []
  wf := dot_S64x200000_S200000x128_S64x128_1_0_0_1_n_n_wf

class Facts : Prop extends Facts₀ where

variable [Facts]
-- ==== Proof.LibTileSums.lean ====
/-
  Finite sums regrouped by blocks, in any commutative additive monoid (no finiteness of the summands is needed, so the
  lemmas apply to extended reals).

    * `sum_blocks`: a sum over a * b consecutive positions is the sum over a blocks of the sum over the b positions inside
      each block (position b * I + r is position r of block I).
    * `sum_tiles`: the same on both axes of a double sum, with the two middle sums exchanged: a sum over all pairs (i, j) is
      the sum over tile pairs (I, J) of the sum over the pairs inside tile (I, J). This is how a sum accumulated tile by
      tile over a grid meets one whole-array sum.
    * `sum_idx1`: a sum over the index set of a rank-1 array is the sum over its one coordinate.
  The summand is a function of natural-number positions, so that tile arithmetic on positions is plain arithmetic.
-/
import Idealize.ShloMosaic.Lib.ValueIdx

noncomputable section

namespace Cert.LibTileSums

open Idealize.ShloMosaic Idealize.ShloMosaic.ValueIdx

/-- A sum over a * b consecutive positions, block by block. -/
theorem sum_blocks {M : Type*} [AddCommMonoid M] (a b : ℕ) (g : ℕ → M) :
    ∑ i : Fin (a * b), g i.val = ∑ I : Fin a, ∑ r : Fin b, g (b * I.val + r.val) := by
  rw [← finProdFinEquiv.sum_comp, Fintype.sum_prod_type]
  refine Finset.sum_congr rfl fun I _ => Finset.sum_congr rfl fun r _ => ?_
  show g (r.val + b * I.val) = _
  rw [Nat.add_comm]

/-- A double sum over [a * b] x [a' * b'], tile pair by tile pair. -/
theorem sum_tiles {M : Type*} [AddCommMonoid M] (a b a' b' : ℕ) (g : ℕ → ℕ → M) :
    ∑ i : Fin (a * b), ∑ j : Fin (a' * b'), g i.val j.val
      = ∑ I : Fin a, ∑ J : Fin a', ∑ r : Fin b, ∑ r' : Fin b', g (b * I.val + r.val) (b' * J.val + r'.val) := by
  rw [sum_blocks a b (fun i => ∑ j : Fin (a' * b'), g i j.val)]
  refine Finset.sum_congr rfl fun I _ => ?_
  rw [Finset.sum_comm]
  have : ∀ r : Fin b, ∑ j : Fin (a' * b'), g (b * I.val + r.val) j.val
      = ∑ J : Fin a', ∑ r' : Fin b', g (b * I.val + r.val) (b' * J.val + r'.val) :=
    fun r => sum_blocks a' b' (fun j => g (b * I.val + r.val) j)
  rw [Finset.sum_comm]
  simp only [this]
  rw [Finset.sum_comm]

/-- A rank-1 index set is its one coordinate range. -/
def idxEquiv1 {n : ℕ} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

end Cert.LibTileSums

end
-- ==== Proof.EdgeSum.lean ====
/-
  The edge aggregation as ONE function of the arrays, and the law that joins a tiled, zero-padded accumulation to it.

  With bei the [64, 200000] normalized incidence matrix, feats the [200000, 128] edge features, w the [128, 128] weight and
  bias the [128] bias, entry (b, k) of the result is

      agg (b, k) = sum over edges e < 200000 of  bei (b, e) * (sum over d < 128 of feats (e, d) * w (d, k)  +  bias k).

  The accumulating side visits 25 tiles of 8192 edge positions, 204800 positions in all: the positions from 200000 on are
  padding and contribute zero. Summed tile by tile and position by position inside a tile, that is the same sum: a sum over
  25 * 8192 consecutive positions regrouped by tiles, its last 4800 terms zero. Only commutativity and associativity of
  addition on the extended reals are used, so no entry needs to be finite.
-/
import Idealize.ShloMosaic.PureOps.Ideal.Laws
import Idealize.ShloMosaic.Lib.ValueIdx
import proofs.«160656_j72301479461281_1_alg».proof.Proof.LibTileSums

noncomputable section

namespace Cert.EdgeSum

open Idealize.ShloMosaic Idealize.ShloMosaic.ValueIdx

/-- What edge position e contributes to entry (b, k): the incidence weight of e in row b times edge e's linear feature k
    (the features' row e against column k of the weight, plus the bias); zero at a padding position e >= 200000. -/
def edgeTerm (bei : FVec Ideal ⟨2, ![64, 200000]⟩ .f32) (feats : FVec Ideal ⟨2, ![200000, 128]⟩ .f32)
    (w : FVec Ideal ⟨2, ![128, 128]⟩ .f32) (bias : FVec Ideal ⟨1, ![128]⟩ .f32) (b : Fin 64) (k : Fin 128) (e : ℕ) : EReal :=
  if h : e < 200000 then
    bei (ix2 b ⟨e, h⟩) * (∑ d : Fin 128, feats (ix2 ⟨e, h⟩ d) * w (ix2 d k) + bias (ix1 k))
  else 0

/-- The aggregate: entry (b, k) is the sum of every edge's contribution. -/
def agg (bei : FVec Ideal ⟨2, ![64, 200000]⟩ .f32) (feats : FVec Ideal ⟨2, ![200000, 128]⟩ .f32)
    (w : FVec Ideal ⟨2, ![128, 128]⟩ .f32) (bias : FVec Ideal ⟨1, ![128]⟩ .f32) : FVec Ideal ⟨2, ![64, 128]⟩ .f32 :=
  fun i => ∑ e : Fin 200000, bei (ix2 (i 0) e) * (∑ d : Fin 128, feats (ix2 e d) * w (ix2 d (i 1)) + bias (ix1 (i 1)))

/-- The sum over 25 tiles of 8192 positions, padding included, is the sum over the 200000 edges. -/
theorem sum_tiles_eq_agg (bei : FVec Ideal ⟨2, ![64, 200000]⟩ .f32) (feats : FVec Ideal ⟨2, ![200000, 128]⟩ .f32)
    (w : FVec Ideal ⟨2, ![128, 128]⟩ .f32) (bias : FVec Ideal ⟨1, ![128]⟩ .f32) (i : (⟨2, ![64, 128]⟩ : Shape).Idx) :
    ∑ t : Fin 25, ∑ j : Fin 8192, edgeTerm bei feats w bias (i 0) (i 1) (8192 * t.val + j.val) = agg bei feats w bias i := by
  rw [← Cert.LibTileSums.sum_blocks 25 8192 (edgeTerm bei feats w bias (i 0) (i 1)),
    Fin.sum_univ_eq_sum_range (edgeTerm bei feats w bias (i 0) (i 1)) (25 * 8192),
    ← Finset.sum_range_add_sum_Ico _ (show 200000 ≤ 25 * 8192 by norm_num),
    Finset.sum_eq_zero (s := Finset.Ico 200000 (25 * 8192)) (fun e he => by
      unfold edgeTerm
      rw [dif_neg (by have := (Finset.mem_Ico.mp he).1; omega)]),
    add_zero, ← Fin.sum_univ_eq_sum_range]
  unfold agg
  refine Finset.sum_congr rfl fun e _ => ?_
  unfold edgeTerm
  rw [dif_pos e.isLt]

end Cert.EdgeSum

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.TileStep.lean ====
/-
  One grid point's arithmetic, read at an entry.

  At a grid point the body holds a tile X of 8192 edge rows of the (padded) features, the whole weight W, the bias as a
  one-row matrix b2, a tile B of 8192 columns of the (padded) incidence matrix, and the accumulator acc. It leaves

      acc (b, k)  +  sum over j < 8192 of  B (b, j) * (sum over d < 128 of X (j, d) * W (d, k)  +  b2 (0, k)):

  two plain matrix products into zero accumulators, the bias row copied to every edge row, and one addition; the changes
  of float format between them are the identity on the extended reals. The block the first grid point starts from is zero.
-/
import proofs.«160656_j72301479461281_1_alg».proof.Proof.Gen.KernelIdeal.Skeleton
import proofs.«160656_j72301479461281_1_alg».proof.Proof.LibPlainDot
import Idealize.ShloMosaic.Lib.Pipeline.Value
import Idealize.ShloMosaic.Lib.ValueIdx
import Idealize.ShloMosaic.PureOps.Ideal.Laws

noncomputable section

namespace Cert.TileStep

open Cert.KernelIdeal Cert.KernelIdeal.Gen Idealize.ShloMosaic Idealize.ShloMosaic.ValueIdx

/-- The block stored at the first grid point is zero. -/
theorem zero_apply (i : S64x128.Idx) : k0_pay1 (F := Ideal) i = 0 := by
  unfold k0_pay1
  rw [shapeCast_self]
  exact Ideal.ofBits_zero_f32

/-- The bias row copied to every edge row, at (j, k), is the row's entry k. -/
theorem bias_rows_apply (b2 : FVec Ideal S1x128 .f32) (j : Fin 8192) (k : Fin 128) :
    broadcastTo S8192x128 b2 broadcasts_S1x128_S8192x128 (ix2 j k) = b2 (ix2 0 k) :=
  broadcastTo_apply b2 broadcasts_S1x128_S8192x128 (ix2 j k) (ix2 0 k) (fun a => by
    match a with
    | ⟨0, _⟩ => rfl
    | ⟨1, _⟩ => rfl)

/-- What a grid point leaves in the accumulator, at entry (b, k). -/
theorem step_apply (X : Vec Ideal S8192x128 .f32) (W : Vec Ideal S128x128 .f32) (b2 : Vec Ideal S1x128 .f32)
    (B : Vec Ideal S64x8192 .f32) (acc : Vec Ideal S64x128 .f32) (b : Fin 64) (k : Fin 128) :
    k0_pay2 (F := Ideal) X W b2 B acc (ix2 b k)
      = acc (ix2 b k) + ∑ j : Fin 8192, B (ix2 b j) * (∑ d : Fin 128, X (ix2 j d) * W (ix2 d k) + b2 (ix2 0 k)) := by
  have hd1 : dot_S8192x128_S128x128_S8192x128_1_0_0_1_n_n = DotDims.plain 8192 128 128 := rfl
  have hd2 : dot_S64x8192_S8192x128_S64x128_1_0_0_1_n_n = DotDims.plain 64 8192 128 := rfl
  unfold k0_pay2
  simp only [shapeCast_self, hd1, hd2]
  refine congrArg (acc (ix2 b k) + ·) ?_
  refine (Cert.LibPlainDot.matmul_plain 64 8192 128 none _ _ (ix2 b k)).trans ?_
  refine Finset.sum_congr rfl fun j _ => ?_
  refine congrArg (B (ix2 b j) * ·) ?_
  refine congr (congrArg HAdd.hAdd ?_) (bias_rows_apply b2 j k)
  exact Cert.LibPlainDot.matmul_plain 8192 128 128 none _ _ (ix2 j k)

end Cert.TileStep

end
-- ==== Proof.CaseValues.lean ====
/-
  What each control case of the body leaves behind, as values.

  The body has three cases over the 25 grid points. At the first point it stores the zero block into the accumulator,
  reads it back and stores the step over it; at a middle point it stores the step over what the point before left; at the
  last point it does the same and then copies the accumulator, as just stored, into the output block. "The step" is the
  body's one arithmetic term (the skeleton's second payload) of the point's four input blocks and the accumulator read.
  Every load reads a whole buffer at offset zero and every store covers its whole buffer, so each buffer ends at the
  last value stored into it. Stated for any float instance.
-/
import proofs.«160656_j72301479461281_1_alg».proof.Proof.Gen.KernelIdeal.Frame
import Idealize.ShloMosaic.Lib.Pipeline.Value
import Idealize.ShloMosaic.Lib.Tactic

noncomputable section

namespace Cert.CaseValues

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First point: the accumulator ends at the step over the zero block. -/
theorem scratch_first (c : Dev nD) (i : grid0.Coords) (arg1 : Memref sig .tc .vmem S8192x128 .f32) (harg1 : arg1.IsWhole) (arg2 : Memref sig .tc .vmem S64x8192 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S64x128 .f32) (harg5 : arg5.IsWhole) (arg6 : Memref sig .tc .vmem S64x128 .f32) (harg6 : arg6.IsWhole) (hc0 : cond0_0 i) (hc1 : ¬cond0_1 i) (x0 : Vec F S8192x128 .f32) (x1 : Vec F S64x8192 .f32) (x2 : Vec F S128x128 .f32) (x3 : Vec F S1x128 .f32) :
    sout0_A_0 c i arg1 harg1 arg2 harg2 arg3 harg3 arg4 harg4 arg5 harg5 arg6 harg6 hc0 hc1 x0 x1 x2 x3 = k0_pay2 x0 x2 x3 x1 k0_pay1 := by
  unfold sout0_A_0
  rw [View.read_writes_eq_canon _ _ _ (scover0_A_0 c i arg1 harg1 arg2 harg2 arg3 harg3 arg4 harg4 arg5 harg5 arg6 harg6 hc0 hc1 x0 x1 x2 x3)]
  unfold kernelRun0_A
  dsimp only
  sl_unfold_words
  rw [View.canon_cons_unit_zero (S := S64x128) hz, View.readCov_unit_zero (S := S64x128) _ hz]
  simp only [View.readAt_eq_ld, harg1.read_unread, harg2.read_unread, harg3.read_unread, harg4.read_unread,
    View.ld_unit_zero (S := S8192x128) hz, View.ld_unit_zero (S := S128x128) hz, View.ld_unit_zero (S := S1x128) hz,
    View.ld_unit_zero (S := S64x8192) hz]

/-- Middle point: the accumulator ends at the step over what it held. -/
theorem scratch_middle (c : Dev nD) (i : grid0.Coords) (arg1 : Memref sig .tc .vmem S8192x128 .f32) (harg1 : arg1.IsWhole) (arg2 : Memref sig .tc .vmem S64x8192 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S64x128 .f32) (harg5 : arg5.IsWhole) (arg6 : Memref sig .tc .vmem S64x128 .f32) (harg6 : arg6.IsWhole) (hc0 : ¬cond0_0 i) (hc1 : ¬cond0_1 i) (x0 : Vec F S8192x128 .f32) (x1 : Vec F S64x8192 .f32) (x2 : Vec F S128x128 .f32) (x3 : Vec F S1x128 .f32) (xs0 : Vec F S64x128 .f32) :
    sout0_B_0 c i arg1 harg1 arg2 harg2 arg3 harg3 arg4 harg4 arg5 harg5 arg6 harg6 hc0 hc1 x0 x1 x2 x3 xs0 = k0_pay2 x0 x2 x3 x1 xs0 := by
  unfold sout0_B_0
  rw [View.read_writes_eq_canon _ _ _ (scover0_B_0 c i arg1 harg1 arg2 harg2 arg3 harg3 arg4 harg4 arg5 harg5 arg6 harg6 hc0 hc1 x0 x1 x2 x3 xs0)]
  unfold kernelRun0_B
  dsimp only
  rw [View.canon_unit_zero hz]
  simp only [View.readAt_eq_ld, harg1.read_unread, harg2.read_unread, harg3.read_unread, harg4.read_unread, harg6.read_unread,
    View.ld_unit_zero (S := S8192x128) hz, View.ld_unit_zero (S := S128x128) hz, View.ld_unit_zero (S := S1x128) hz,
    View.ld_unit_zero (S := S64x8192) hz, View.ld_unit_zero (S := S64x128) hz]

/-- Last point: the accumulator ends at the step over what it held, -/
theorem scratch_last (c : Dev nD) (i : grid0.Coords) (arg1 : Memref sig .tc .vmem S8192x128 .f32) (harg1 : arg1.IsWhole) (arg2 : Memref sig .tc .vmem S64x8192 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S64x128 .f32) (harg5 : arg5.IsWhole) (arg6 : Memref sig .tc .vmem S64x128 .f32) (harg6 : arg6.IsWhole) (hc0 : ¬cond0_0 i) (hc1 : cond0_1 i) (x0 : Vec F S8192x128 .f32) (x1 : Vec F S64x8192 .f32) (x2 : Vec F S128x128 .f32) (x3 : Vec F S1x128 .f32) (xs0 : Vec F S64x128 .f32) :
    sout0_C_0 c i arg1 harg1 arg2 harg2 arg3 harg3 arg4 harg4 arg5 harg5 arg6 harg6 hc0 hc1 x0 x1 x2 x3 xs0 = k0_pay2 x0 x2 x3 x1 xs0 := by
  unfold sout0_C_0
  rw [View.read_writes_eq_canon _ _ _ (scover0_C_0 c i arg1 harg1 arg2 harg2 arg3 harg3 arg4 harg4 arg5 harg5 arg6 harg6 hc0 hc1 x0 x1 x2 x3 xs0)]
  unfold kernelRun0_C
  dsimp only
  sl_unfold_words
  rw [View.canon_unit_zero hz]
  simp only [View.readAt_eq_ld, harg1.read_unread, harg2.read_unread, harg3.read_unread, harg4.read_unread, harg6.read_unread,
    View.ld_unit_zero (S := S8192x128) hz, View.ld_unit_zero (S := S128x128) hz, View.ld_unit_zero (S := S1x128) hz,
    View.ld_unit_zero (S := S64x8192) hz, View.ld_unit_zero (S := S64x128) hz]

/-- and the output block at the same value: the accumulator read back after its store. -/
theorem out_last (c : Dev nD) (i : grid0.Coords) (arg1 : Memref sig .tc .vmem S8192x128 .f32) (harg1 : arg1.IsWhole) (arg2 : Memref sig .tc .vmem S64x8192 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S64x128 .f32) (harg5 : arg5.IsWhole) (arg6 : Memref sig .tc .vmem S64x128 .f32) (harg6 : arg6.IsWhole) (hc0 : ¬cond0_0 i) (hc1 : cond0_1 i) (x0 : Vec F S8192x128 .f32) (x1 : Vec F S64x8192 .f32) (x2 : Vec F S128x128 .f32) (x3 : Vec F S1x128 .f32) (xs0 : Vec F S64x128 .f32) :
    out0_C_4 c i arg1 harg1 arg2 harg2 arg3 harg3 arg4 harg4 arg5 harg5 arg6 harg6 hc0 hc1 x0 x1 x2 x3 xs0 = k0_pay2 x0 x2 x3 x1 xs0 := by
  unfold out0_C_4
  rw [View.read_writes_eq_canon _ _ _ (cover0_C_4 c i arg1 harg1 arg2 harg2 arg3 harg3 arg4 harg4 arg5 harg5 arg6 harg6 hc0 hc1 x0 x1 x2 x3 xs0)]
  unfold kernelRun0_C
  dsimp only
  sl_unfold_words
  rw [View.canon_unit_zero hz, View.readCov_unit_zero (S := S64x128) _ hz]
  simp only [View.readAt_eq_ld, harg1.read_unread, harg2.read_unread, harg3.read_unread, harg4.read_unread, harg6.read_unread,
    View.ld_unit_zero (S := S8192x128) hz, View.ld_unit_zero (S := S128x128) hz, View.ld_unit_zero (S := S1x128) hz,
    View.ld_unit_zero (S := S64x8192) hz, View.ld_unit_zero (S := S64x128) hz]

end Cert.CaseValues

end
-- ==== Proof.Blocks.lean ====
/-
  The arrays the grid finds, and the blocks it reads from them.

  Before the grid runs, the host pads the features with 4800 zero rows (200000 -> 204800 rows) and the normalized
  incidence matrix with 4800 zero columns (200000 -> 204800 columns), and reshapes the bias to one row. Grid point t then
  reads rows 8192 t .. 8192 t + 8191 of the padded features, the same columns of the padded incidence matrix, the whole
  weight and the whole bias row: a block's entry (a, b) is its array's entry (index * size + a, ...), and the index maps
  are (t, 0), (0, t), (0, 0), (0, 0). At a position below 200000 a padded array holds the original entry; from 200000 on
  the incidence matrix holds the padding value, the integer 0 converted to a float: zero.
-/
import proofs.«160656_j72301479461281_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.KernelVsHost

noncomputable section

namespace Cert.Blocks

open Cert.KernelIdeal Cert.KernelIdeal.Gen Idealize.ShloMosaic Idealize.ShloMosaic.TcCoe Idealize.SL.Sem
open Idealize.ShloMosaic.ValueIdx Idealize.ShloMosaic.StableHlo

/-! ## The index maps, decided once over the grid -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = t.val :=
  (by decide +kernel : ∀ t : Fin grid0.N, win0_1.index t 0 = 0 ∧ win0_1.index t 1 = t.val)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)

/-- Position j of tile t is a position of the padded arrays. -/
theorem pos_lt (t : Fin cfg0.N) (j : Fin 8192) : 8192 * t.val + j.val < 204800 := by
  have := lt_of_lt_of_eq t.isLt (show cfg0.N = 25 from N_0); have := j.isLt; omega

section AnyFloat

variable {F : FTy → Type} [FloatOps F]
variable (m : (ℓ : Loc nD τ sig) → Buf (Elt F) ℓ)

/-! ## The blocks, read off their arrays -/

/-- Tile t of the padded features: rows 8192 t + j. -/
theorem feats_block (c : Dev nD) (t : Fin cfg0.N) (j : Fin 8192) (d : Fin 128) :
    (iblk m c 0 t : Vec F S8192x128 .f32) (ix2 j d)
      = (V m c main_v24 : FVec F S204800x128 .f32) (ix2 ⟨8192 * t.val + j.val, pos_lt t j⟩ d) := by
  have hi := idx0 t
  unfold iblk
  rw [View.read_apply]
  show V m c main_v24 _ = V m c main_v24 _
  refine congrArg (V m c main_v24 : FVec F S204800x128 .f32) (funext fun a => Fin.ext ?_)
  match a with
  | ⟨0, _⟩ => show win0_0.index t 0 * 8192 + 1 * j.val = 8192 * t.val + j.val; rw [hi.1]; omega
  | ⟨1, _⟩ => show win0_0.index t 1 * 128 + 1 * d.val = d.val; rw [hi.2]; omega

/-- Tile t of the padded incidence matrix: columns 8192 t + j. -/
theorem bei_block (c : Dev nD) (t : Fin cfg0.N) (b : Fin 64) (j : Fin 8192) :
    (iblk m c 1 t : Vec F S64x8192 .f32) (ix2 b j)
      = (V m c main_v25 : FVec F S64x204800 .f32) (ix2 b ⟨8192 * t.val + j.val, pos_lt t j⟩) := by
  have hi := idx1 t
  unfold iblk
  rw [View.read_apply]
  show V m c main_v25 _ = V m c main_v25 _
  refine congrArg (V m c main_v25 : FVec F S64x204800 .f32) (funext fun a => Fin.ext ?_)
  match a with
  | ⟨0, _⟩ => show win0_1.index t 0 * 64 + 1 * b.val = b.val; rw [hi.1]; omega
  | ⟨1, _⟩ => show win0_1.index t 1 * 8192 + 1 * j.val = 8192 * t.val + j.val; rw [hi.2]; omega

/-- The weight's one block is the weight. -/
theorem weight_block (c : Dev nD) (t : Fin cfg0.N) (d k : Fin 128) :
    (iblk m c 2 t : Vec F S128x128 .f32) (ix2 d k) = (V m c main_arg2 : FVec F S128x128 .f32) (ix2 d k) := by
  have hi := idx2 t
  unfold iblk
  rw [View.read_apply]
  show V m c main_arg2 _ = V m c main_arg2 _
  refine congrArg (V m c main_arg2 : FVec F S128x128 .f32) (funext fun a => Fin.ext ?_)
  match a with
  | ⟨0, _⟩ => show win0_2.index t 0 * 128 + 1 * d.val = d.val; rw [hi.1]; omega
  | ⟨1, _⟩ => show win0_2.index t 1 * 128 + 1 * k.val = k.val; rw [hi.2]; omega

/-- The bias row's one block is the bias row. -/
theorem bias_block (c : Dev nD) (t : Fin cfg0.N) (z : Fin 1) (k : Fin 128) :
    (iblk m c 3 t : Vec F S1x128 .f32) (ix2 z k) = (V m c main_v26 : FVec F S1x128 .f32) (ix2 z k) := by
  have hi := idx3 t
  unfold iblk
  rw [View.read_apply]
  show V m c main_v26 _ = V m c main_v26 _
  refine congrArg (V m c main_v26 : FVec F S1x128 .f32) (funext fun a => Fin.ext ?_)
  match a with
  | ⟨0, _⟩ => show win0_3.index t 0 * 1 + 1 * z.val = z.val; rw [hi.1]; omega
  | ⟨1, _⟩ => show win0_3.index t 1 * 128 + 1 * k.val = k.val; rw [hi.2]; omega

/-! ## The arrays the host wrote before the grid -/

/-- The padded features: the features, then 4800 rows of the padding value. -/
theorem feats_padded (c : Dev nD) :
    (V m c main_v24 : FVec F S204800x128 .f32)
      = pad S204800x128 ![0, 0] ![4800, 0] ![0, 0] (m ((c : Thread nD τ).loc main_arg1)) (sitofp (F := F) .f32 (constantI S_ 32 0#32))
          pads_S200000x128_S204800x128_048000_000 h_S_ := by
  dsimp only [V]
  simp only [hostOps0, hostOps0_1, hostOps0_2, hostOps0_3, hostOps0_4, hostOps0_5, hostOps0_6, List.flatten_cons, List.flatten_nil,
    List.append_nil, List.cons_append, List.nil_append]
  after_results_simp
  rfl

/-- The padded incidence matrix: the normalized incidence matrix, then 4800 columns of the padding value. -/
theorem bei_padded (c : Dev nD) :
    (V m c main_v25 : FVec F S64x204800 .f32)
      = pad S64x204800 ![0, 0] ![0, 4800] ![0, 0] (V m c main_v23 : FVec F S64x200000 .f32) (sitofp (F := F) .f32 (constantI S_ 32 0#32))
          pads_S64x200000_S64x204800_000_048000 h_S_ := by
  dsimp only [V]
  simp only [hostOps0, hostOps0_1, hostOps0_2, hostOps0_3, hostOps0_4, hostOps0_5, hostOps0_6, List.flatten_cons, List.flatten_nil,
    List.append_nil, List.cons_append, List.nil_append]
  after_results_simp
  rfl

/-- The bias as one row. -/
theorem bias_row (c : Dev nD) :
    (V m c main_v26 : FVec F S1x128 .f32) = shapeCast S1x128 (m ((c : Thread nD τ).loc main_arg3)) shapeCasts_S128_S1x128 := by
  dsimp only [V]
  simp only [hostOps0, hostOps0_1, hostOps0_2, hostOps0_3, hostOps0_4, hostOps0_5, hostOps0_6, List.flatten_cons, List.flatten_nil,
    List.append_nil, List.cons_append, List.nil_append]
  after_results_simp
  rfl

/-- A features row below 200000 is the original row. -/
theorem feats_at (c : Dev nD) (e : ℕ) (he : e < 204800) (h : e < 200000) (d : Fin 128) :
    (V m c main_v24 : FVec F S204800x128 .f32) (ix2 ⟨e, he⟩ d) = m ((c : Thread nD τ).loc main_arg1) (ix2 ⟨e, h⟩ d) := by
  rw [feats_padded]
  exact pad_apply_of_inside _ _ _ _ _ pads_S200000x128_S204800x128_048000_000 h_S_ (ix2 ⟨e, he⟩ d) (ix2 ⟨e, h⟩ d) (fun a => by
    match a with
    | ⟨0, _⟩ => show e = 0 + e * (0 + 1); omega
    | ⟨1, _⟩ => show d.val = 0 + d.val * (0 + 1); omega)

/-- An incidence column below 200000 is the original column. -/
theorem bei_at (c : Dev nD) (b : Fin 64) (e : ℕ) (he : e < 204800) (h : e < 200000) :
    (V m c main_v25 : FVec F S64x204800 .f32) (ix2 b ⟨e, he⟩) = (V m c main_v23 : FVec F S64x200000 .f32) (ix2 b ⟨e, h⟩) := by
  rw [bei_padded]
  exact pad_apply_of_inside _ _ _ _ _ pads_S64x200000_S64x204800_000_048000 h_S_ (ix2 b ⟨e, he⟩) (ix2 b ⟨e, h⟩) (fun a => by
    match a with
    | ⟨0, _⟩ => show b.val = 0 + b.val * (0 + 1); omega
    | ⟨1, _⟩ => show e = 0 + e * (0 + 1); omega)

/-- The bias row's entry k is the bias's entry k. -/
theorem bias_at (c : Dev nD) (k : Fin 128) :
    (V m c main_v26 : FVec F S1x128 .f32) (ix2 0 k) = m ((c : Thread nD τ).loc main_arg3) (ix1 k) := by
  rw [bias_row]
  refine (shapeCast_addUnit_apply ![128] (m ((c : Thread nD τ).loc main_arg3)) shapeCasts_S128_S1x128 (ix2 0 k)).trans ?_
  exact congrArg (m ((c : Thread nD τ).loc main_arg3)) (funext fun a => by
    match a with
    | ⟨0, _⟩ => rfl)

end AnyFloat

/-- On the extended reals an incidence column from 200000 on is zero. -/
theorem bei_at_pad (m : (ℓ : Loc nD τ sig) → Buf (Elt Ideal) ℓ) (c : Dev nD) (b : Fin 64) (e : ℕ) (he : e < 204800) (h : ¬e < 200000) :
    (V m c main_v25 : FVec Ideal S64x204800 .f32) (ix2 b ⟨e, he⟩) = (0 : EReal) := by
  rw [bei_padded]
  refine (pad_apply_of_not_inside _ _ _ _ _ pads_S64x200000_S64x204800_000_048000 h_S_ (ix2 b ⟨e, he⟩) 1 (by
    show ¬(0 ≤ e ∧ (e - 0) % (0 + 1) = 0 ∧ (e - 0) / (0 + 1) < 200000)
    omega)).trans ?_
  show (((0#32 : BitVec 32).toInt : ℝ) : EReal) = 0
  simp

end Cert.Blocks

end
-- ==== Proof.KernelValue.lean ====
/-
  What the accumulating side's result array holds after the run: the edge aggregate.

  Tile n's addend to entry (b, k) is the sum, over the 8192 positions of the tile, of the position's contribution
  (zero at a padding position). The accumulator after grid point n is zero plus the addends of tiles 0 .. n: the first
  point steps from the zero block, every later point from what the point before left. The last point copies the
  accumulator into the output block, whose one block is the whole result array and which only that point writes back.
  Zero plus the 25 tiles' addends is the sum over all 200000 edges.
-/
import proofs.«160656_j72301479461281_1_alg».proof.Proof.Gen.KernelIdeal.Value
import proofs.«160656_j72301479461281_1_alg».proof.Proof.EdgeSum
import proofs.«160656_j72301479461281_1_alg».proof.Proof.TileStep
import proofs.«160656_j72301479461281_1_alg».proof.Proof.CaseValues
import proofs.«160656_j72301479461281_1_alg».proof.Proof.Blocks

noncomputable section

namespace Cert.KernelValue

open Cert.KernelIdeal Cert.KernelIdeal.Gen Idealize.ShloMosaic Idealize.ShloMosaic.TcCoe Idealize.SL.Sem
open Idealize.ShloMosaic.ValueIdx Cert.EdgeSum
open Idealize.ShloMosaic.Pipeline (Dat)

variable (m : (ℓ : Loc nD τ sig) → Buf (Elt Ideal) ℓ) (ρ : Dev nD → PrngReg)

/-- The result: the aggregate of the normalized incidence matrix the host computed and of the three float arguments. -/
abbrev result (c : Dev nD) : Buf (Elt Ideal) ((c : Thread nD τ).loc main_v27) :=
  agg (V m c main_v23) (m ((c : Thread nD τ).loc main_arg1)) (m ((c : Thread nD τ).loc main_arg2)) (m ((c : Thread nD τ).loc main_arg3))

/-- Tile n's addend to entry (b, k). -/
def tileSum (c : Dev nD) (n : ℕ) (b : Fin 64) (k : Fin 128) : EReal :=
  ∑ j : Fin 8192, edgeTerm (V m c main_v23) (m ((c : Thread nD τ).loc main_arg1)) (m ((c : Thread nD τ).loc main_arg2)) (m ((c : Thread nD τ).loc main_arg3)) b k (8192 * n + j.val)

/-- The step at grid point t adds tile t's addend. -/
theorem tile_step (c : Dev nD) (t : Fin cfg0.N) (acc : Vec Ideal S64x128 .f32) (b : Fin 64) (k : Fin 128) :
    k0_pay2 (F := Ideal) (iblk m c 0 t) (iblk m c 2 t) (iblk m c 3 t) (iblk m c 1 t) acc (ix2 b k)
      = acc (ix2 b k) + tileSum m c t.val b k := by
  refine (Cert.TileStep.step_apply (iblk m c 0 t) (iblk m c 2 t) (iblk m c 3 t) (iblk m c 1 t) acc b k).trans ?_
  refine congrArg (acc (ix2 b k) + ·) (Finset.sum_congr rfl fun j _ => ?_)
  rw [Cert.Blocks.bei_block m c t b j, Cert.Blocks.bias_block m c t 0 k, Cert.Blocks.bias_at m c k]
  simp only [Cert.Blocks.feats_block m c t j, Cert.Blocks.weight_block m c t, V_main_arg2 m c]
  unfold edgeTerm
  by_cases h : 8192 * t.val + j.val < 200000
  · rw [dif_pos h, Cert.Blocks.bei_at m c b _ (Cert.Blocks.pos_lt t j) h]
    simp only [Cert.Blocks.feats_at m c _ (Cert.Blocks.pos_lt t j) h]
  · rw [dif_neg h, Cert.Blocks.bei_at_pad m c b _ (Cert.Blocks.pos_lt t j) h, zero_mul]

/-- The first point leaves zero plus tile 0's addend. -/
theorem first_point (c : Dev nD) (h : 0 < cfg0.N) (b : Fin 64) (k : Fin 128) :
    Cert.KernelIdeal.Value.scAt0_0 m c 0 h (VS0_0.read (Elt Ideal) VS0_0.junk) (ix2 b k) = 0 + tileSum m c 0 b k := by
  unfold Cert.KernelIdeal.Value.scAt0_0
  rw [dif_pos (Nat.zero_mod 25), dif_neg (by decide : ¬0 % 25 = 24)]
  refine (congrFun (Cert.CaseValues.scratch_first c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) scM0_0 (Memref.isWhole_whole _) _ _ (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N))) (ix2 b k)).trans ?_
  refine (tile_step m c (⟨0, h⟩ : Fin cfg0.N) _ b k).trans ?_
  rw [Cert.TileStep.zero_apply]

/-- A later point adds its tile's addend to what the point before left. -/
theorem later_point (c : Dev nD) (n : ℕ) (h : n < cfg0.N) (acc : Vec Ideal S64x128 .f32) (h0 : 0 < n) (b : Fin 64) (k : Fin 128) :
    Cert.KernelIdeal.Value.scAt0_0 m c n h acc (ix2 b k) = acc (ix2 b k) + tileSum m c n b k := by
  have hN : n < 25 := lt_of_lt_of_eq h (show cfg0.N = 25 from N_0)
  have hn0 : ¬n % 25 = 0 := by omega
  unfold Cert.KernelIdeal.Value.scAt0_0
  rw [dif_neg hn0]
  by_cases h1 : n % 25 = 24
  · rw [dif_pos h1]
    refine (congrFun (Cert.CaseValues.scratch_last c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) acc) (ix2 b k)).trans ?_
    exact tile_step m c (⟨n, h⟩ : Fin cfg0.N) acc b k
  · rw [dif_neg h1]
    refine (congrFun (Cert.CaseValues.scratch_middle c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) acc) (ix2 b k)).trans ?_
    exact tile_step m c (⟨n, h⟩ : Fin cfg0.N) acc b k

/-- The accumulator after point n: zero plus the addends of tiles 0 .. n. -/
theorem acc_after (c : Dev nD) (n : ℕ) (hn : n < cfg0.N) (b : Fin 64) (k : Fin 128) :
    (outsAt0 m c n hn).2 (ix2 b k) = 0 + ∑ s ∈ Finset.range (n + 1), tileSum m c (0 + s) b k := by
  have hN : n < 25 := lt_of_lt_of_eq hn (show cfg0.N = 25 from N_0)
  rw [Cert.KernelIdeal.Value.soutsAt0_0_sweep m c n hn]
  exact Pipeline.accAt_add_apply (N := cfg0.N)
    (fun n h => Cert.KernelIdeal.Value.scAt0_0 m c n h (VS0_0.read (Elt Ideal) VS0_0.junk)) (Cert.KernelIdeal.Value.scAt0_0 m c)
    (fun _ => (0 : EReal)) (fun s (i : S64x128.Idx) => tileSum m c s (i 0) (i 1)) 0 24
    (fun h i => by
      obtain ⟨b, k, rfl⟩ : ∃ (b : Fin 64) (k : Fin 128), i = ix2 b k := ⟨i 0, i 1, eq_ix2 i⟩
      exact first_point m c h b k)
    (fun n h acc i h0 _ => by
      obtain ⟨b, k, rfl⟩ : ∃ (b : Fin 64) (k : Fin 128), i = ix2 b k := ⟨i 0, i 1, eq_ix2 i⟩
      exact later_point m c n h acc h0 b k)
    n (by omega) _ (ix2 b k)

/-- At the last point the output block holds the result. -/
theorem output_eq (c : Dev nD) (t : Fin cfg0.N) (h24 : t.val % 25 = 24) : (outsAt0 m c t.val t.isLt).1 = result m c := by
  have hN : t.val < 25 := lt_of_lt_of_eq t.isLt (show cfg0.N = 25 from N_0)
  have h0 : ¬t.val % 25 = 0 := by omega
  have e1 : (outsAt0 m c t.val t.isLt).1 = (outsAt0 m c t.val t.isLt).2 := by
    rw [outsAt0_C m c t h0 h24]
    dsimp only
    exact (Cert.CaseValues.out_last c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) _).trans
      (Cert.CaseValues.scratch_last c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) _).symm
  rw [e1]
  funext i
  obtain ⟨b, k, rfl⟩ : ∃ (b : Fin 64) (k : Fin 128), i = ix2 b k := ⟨i 0, i 1, eq_ix2 i⟩
  have ht : t.val = 24 := by omega
  rw [acc_after m c t.val t.isLt b k, ht, zero_add]
  simp only [Nat.zero_add]
  rw [Finset.sum_range (fun s => tileSum m c s b k)]
  exact sum_tiles_eq_agg _ _ _ _ (ix2 b k)

/-- The output's one block, at index (0, 0) and of the array's own size, is the whole array: any contents of the block are
    those contents read through the block. -/
theorem block_is_array (c : Dev nD) (G : Buf (Elt Ideal) ((c : Thread nD τ).loc main_v27)) (t : Fin cfg0.N) :
    (cfg0.win 4).cut (grid0.coords t) G = ((cfg0.win 4).blk t).view.read (Elt Ideal) G := by
  have hi := Cert.Blocks.idx4 t
  funext y
  rw [View.read_apply]
  show G _ = G _
  refine congrArg G (funext fun a => Fin.ext ?_)
  match a with
  | ⟨0, _⟩ => show _ = win0_4.index t 0 * 64 + 1 * _; rw [hi.1]; exact (by omega : ∀ n : ℕ, n = 0 * 64 + 1 * n) _
  | ⟨1, _⟩ => show _ = win0_4.index t 1 * 128 + 1 * _; rw [hi.2]; exact (by omega : ∀ n : ℕ, n = 0 * 128 + 1 * n) _

/-- What the one write-back (at the last point) writes is the result read through the block. -/
theorem flushed_eq (c : Dev nD) (t : Fin cfg0.N) (hf : (cfg0.win 4).flush t = true) :
    (dats m 0 c).flushed 4 t = ((cfg0.win 4).blk t).view.read (Elt Ideal) (result m c) := by
  have h24 : t.val % 25 = 24 := (flush0_4 t).mp hf
  rw [Cert.KernelIdeal.Value.flushed4, output_eq m c t h24]
  exact block_is_array c (result m c) t

/-- The last point. -/
abbrev tLast : Fin cfg0.N := ⟨24, by rw [show cfg0.N = 25 from N_0]; decide⟩

/-- So the result array ends holding the result: the last point's block covers it. -/
theorem final (c : Dev nD) : (dats m 0 c).arrAt 4 cfg0.N = result m c :=
  (dats m 0 c).arrAt_eq_of_cover 4 (result m c) (flushed_eq m c) fun i =>
    ⟨tLast, (flush0_4 tLast).mpr rfl, by
      show i ∈ ((View.whole main_v27).slice (win0_4.rect tLast)).set
      rw [View.set_slice_whole, Rect.mem_set_unit]
      intro a
      have h0 : (i 0 : Nat) < 64 := (i 0).isLt
      have h1 : (i 1 : Nat) < 128 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 64 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 128 from by decide +kernel]; omega⟩

/-- The run, read: the result array at the aggregate, the arguments unchanged. -/
theorem run : θ_run defs (onTc (τ := τ) (main (F := Ideal))) ⟨m, fun _ => 0, ρ⟩ fun r => ∀ c : Dev nD,
      r.2.mem ((c : Thread nD τ).loc main_v27) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelValue

end
-- ==== Proof.RefValue.lean ====
/-
  The reference's result is the edge aggregate.

  The reference multiplies the features by the weight (one product over d < 128), adds the bias to every edge row, and
  multiplies the normalized incidence matrix by that (one product over the 200000 edges). Read at entry (b, k), operation
  by operation, that is the sum over edges e of bei (b, e) * (sum over d of feats (e, d) * w (d, k) + bias k).
-/
import proofs.«160656_j72301479461281_1_alg».proof.Proof.Gen.ReferenceIdeal.Read
import proofs.«160656_j72301479461281_1_alg».proof.Proof.EdgeSum

noncomputable section

namespace Cert.RefValue

open Cert.ReferenceIdeal Cert.ReferenceIdeal.Gen Cert.ReferenceIdeal.Read Idealize.ShloMosaic Idealize.ShloMosaic.ValueIdx

/-- The reference's result, as a function of the normalized incidence matrix it computed and of the other arguments. -/
theorem result_eq_agg (x0 : FVec Ideal S64x50000 .f32) (x1 : FVec Ideal S200000x128 .f32) (x2 : FVec Ideal S128x128 .f32)
    (x3 : FVec Ideal S128 .f32) (x4 x5 : IVec S200000 32) :
    val_main_v28 (F := Ideal) x0 x1 x2 x3 x4 x5 = Cert.EdgeSum.agg (val_main_v23 (F := Ideal) x0 x4 x5) x1 x2 x3 := by
  funext i
  obtain ⟨b, k, rfl⟩ : ∃ (b : Fin 64) (k : Fin 128), i = ix2 b k := ⟨i 0, i 1, eq_ix2 i⟩
  have e1 : ∀ e : Fin 200000, lidx_main_v28 (ix2 b k) e = ix2 b e := fun e => funext fun a => Fin.ext (by
    match a with
    | ⟨0, _⟩ => rfl
    | ⟨1, _⟩ => rfl)
  have e2 : ∀ e : Fin 200000, ridx_main_v28 (ix2 b k) e = ix2 e k := fun e => funext fun a => Fin.ext (by
    match a with
    | ⟨0, _⟩ => rfl
    | ⟨1, _⟩ => rfl)
  have e3 : ∀ (e : Fin 200000) (d : Fin 128), lidx_main_v24 (ix2 e k) d = ix2 e d := fun e d => funext fun a => Fin.ext (by
    match a with
    | ⟨0, _⟩ => rfl
    | ⟨1, _⟩ => rfl)
  have e4 : ∀ (e : Fin 200000) (d : Fin 128), ridx_main_v24 (ix2 e k) d = ix2 d k := fun e d => funext fun a => Fin.ext (by
    match a with
    | ⟨0, _⟩ => rfl
    | ⟨1, _⟩ => rfl)
  have e5 : ∀ e : Fin 200000, idx_main_v25 (idx_main_v26 (ix2 e k)) = ix1 k := fun e => funext fun a => Fin.ext (by
    match a with
    | ⟨0, _⟩ => rfl)
  rw [val_main_v28_apply]
  show _ = ∑ e : Fin 200000, val_main_v23 (F := Ideal) x0 x4 x5 (ix2 b e) * (∑ d : Fin 128, x1 (ix2 e d) * x2 (ix2 d k) + x3 (ix1 k))
  refine Finset.sum_congr rfl fun e _ => ?_
  rw [e1, e2, val_main_v27_apply, val_main_v24_apply, val_main_v26_apply, val_main_v25_apply, e5]
  simp only [e3, e4, Ideal.addf_def]

end Cert.RefValue

end
-- ==== Proof.Incidence.lean ====
/-
  The normalized incidence matrix is the same on both sides.

  Both programs compute it from the node indicators and the two endpoint lists by the same host operations: two gathers
  of indicator columns (a negative endpoint wrapped by 50000), their sum, each row divided by its positive row sum (a row
  whose sum is not positive is multiplied by zero). The accumulating side holds it in a buffer when the grid starts; the
  reference's run names it as a stage. The two are one term of the arguments.
-/
import proofs.«160656_j72301479461281_1_alg».proof.Proof.Gen.KernelIdeal.Frame
import proofs.«160656_j72301479461281_1_alg».proof.Proof.Gen.ReferenceIdeal.Read
import Idealize.ShloMosaic.Lib.StableHlo.Run

noncomputable section

namespace Cert.Incidence

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The incidence buffer the grid finds is the reference's incidence stage of the same arguments. -/
theorem bei_eq (c : Dev nD) :
    (V m c main_v23 : FVec F ⟨2, ![64, 200000]⟩ .f32)
      = Cert.ReferenceIdeal.Read.val_main_v23 (F := F) (m ((c : Thread nD τ).loc main_arg0)) (m ((c : Thread nD τ).loc main_arg4))
          (m ((c : Thread nD τ).loc main_arg5)) := by
  dsimp only [V]
  simp only [hostOps0, hostOps0_1, hostOps0_2, hostOps0_3, hostOps0_4, hostOps0_5, hostOps0_6, List.flatten_cons, List.flatten_nil,
    List.append_nil, List.cons_append, List.nil_append]
  after_results_simp
  rfl

end Cert.Incidence

end
-- ==== Proof.lean ====
/-
  An edge convolution aggregated over a graph batch: a tiled accumulation against two whole matrix products.

  Both programs first compute the normalized incidence matrix bei [64, 200000] from the node indicators and the edges'
  endpoint lists, by the same host operations. The reference then returns bei * (feats * w + bias), entry (b, k) being the
  sum over the 200000 edges e of bei (b, e) * (sum over d of feats (e, d) * w (d, k) + bias k). The other program pads
  the edge axis with zeros to 204800 = 25 * 8192 and runs a grid of 25 points, point t adding to a [64, 128] accumulator
  (zeroed at the first point, copied to the result at the last) the product of tile t of bei with (tile t of feats) * w +
  bias; the intermediate roundings to a narrower float format are the identity on the extended reals. Since a padding
  column of bei is zero, a padding position adds zero whatever its edge row holds, and the 25 tiles' sums regroup into the
  one sum over the edges: commutativity and associativity of addition only, so the inputs' finiteness is not used.

  The frames of the two grid programs and the reference's run are the generated ones; the ideal pass rewrote nothing.
-/
import proofs.«160656_j72301479461281_1_alg».proof.Defs
import proofs.«160656_j72301479461281_1_alg».proof.Proof.Gen.Kernel
import proofs.«160656_j72301479461281_1_alg».proof.Proof.Gen.Kernel.Skeleton
import proofs.«160656_j72301479461281_1_alg».proof.Proof.Gen.Kernel.Launch
import proofs.«160656_j72301479461281_1_alg».proof.Proof.Gen.Kernel.Points
import proofs.«160656_j72301479461281_1_alg».proof.Proof.Gen.Kernel.Frame
import proofs.«160656_j72301479461281_1_alg».proof.Proof.Gen.KernelIdeal
import proofs.«160656_j72301479461281_1_alg».proof.Proof.Gen.KernelIdeal.Skeleton
import proofs.«160656_j72301479461281_1_alg».proof.Proof.Gen.KernelIdeal.Launch
import proofs.«160656_j72301479461281_1_alg».proof.Proof.Gen.KernelIdeal.Points
import proofs.«160656_j72301479461281_1_alg».proof.Proof.Gen.KernelIdeal.Frame
import proofs.«160656_j72301479461281_1_alg».proof.Proof.Gen.ReferenceIdeal
import proofs.«160656_j72301479461281_1_alg».proof.Proof.Gen.Pre_finite_inputs
import proofs.«160656_j72301479461281_1_alg».proof.Proof.Gen.KernelIdeal.Value
import proofs.«160656_j72301479461281_1_alg».proof.Proof.Gen.ReferenceIdeal.Run
import proofs.«160656_j72301479461281_1_alg».proof.Proof.Gen.ReferenceIdeal.Read
import proofs.«160656_j72301479461281_1_alg».proof.Proof.KernelValue
import proofs.«160656_j72301479461281_1_alg».proof.Proof.RefValue
import proofs.«160656_j72301479461281_1_alg».proof.Proof.Incidence
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both result arrays end at the edge aggregate of the one incidence matrix and of arguments that agree. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.RefValue.result_eq_agg, (hagree c).1, (hagree c).2.1, (hagree c).2.2.1,
    (hagree c).2.2.2.1, (hagree c).2.2.2.2.1, (hagree c).2.2.2.2.2]
  show _ = Cert.EdgeSum.agg (Cert.KernelIdeal.Gen.V m c Cert.KernelIdeal.main_v23) _ _ _
  rw [Cert.Incidence.bei_eq m c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
